-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel

variable [Facts]

def fn {F : FTy → Type} [FloatOps F] (main_arg0 : FVec F S4096x8192 .f32) (main_arg1 : FVec F S4096x8192 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S4096x8192 .f32 := Host.absf main_arg1
  let main_cst_0 : FVec F S_ .f32 := constant S_ .f32 0x7F800000#32
  let main_v5 : FVec F S4096x8192 .f32 := broadcastInDim S4096x8192 ![] bcast_S_S4096x8192 main_cst_0
  let main_v6 : IVec S4096x8192 1 := cmpf .olt main_v4 main_v5
  let main_c_1 : IVec S_ 1 := constantI S_ 1 1#1
  let main_v7 : IVec S_ 1 := (fun x v => Host.reduce IntOp.andi x v reducesTo_S4096x8192_S_d0_1 h_S_) main_v6 main_c_1
  let main_v8 : IVec S_ 1 := andi main_v3 main_v7
  main_v8
-- ==== Kernel.lean ====
abbrev S4096x8192 : Shape := ⟨2, ![4096, 8192]⟩
abbrev S2x1x1 : Shape := ⟨3, ![2, 1, 1]⟩
abbrev S128x8192 : Shape := ⟨2, ![128, 8192]⟩
abbrev S1x1x1 : Shape := ⟨3, ![1, 1, 1]⟩
abbrev S128 : Shape := ⟨1, ![128]⟩
abbrev S128x1 : Shape := ⟨2, ![128, 1]⟩
abbrev S1 : Shape := ⟨1, ![1]⟩
abbrev S1x1 : Shape := ⟨2, ![1, 1]⟩
abbrev S_ : Shape := ⟨0, ![]⟩

abbrev nBuf : Space → Nat
  | .hbm => 7
  | .vmem => 6
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | .hbm, ⟨2, _⟩ => ⟨S2x1x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S128x8192, .f32⟩
  | .local _ .vmem, ⟨1, _⟩ => ⟨S128x8192, .f32⟩
  | .local _ .vmem, ⟨2, _⟩ => ⟨S128x8192, .f32⟩
  | .local _ .vmem, ⟨3, _⟩ => ⟨S128x8192, .f32⟩
  | .local _ .vmem, ⟨4, _⟩ => ⟨S1x1x1, .f32⟩
  | .local _ .vmem, ⟨5, _⟩ => ⟨S1x1x1, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x1x1_S1x1x1_0_0_0 : ∀ a, (![0, 0, 0] : Fin 3 → Nat) a + S1x1x1.size a ≤ S1x1x1.size a
  h_S1x1x1 : 0 < S1x1x1.numel
  inb_S128x8192_S128x8192_0_0 : ∀ a, (![0, 0] : Fin 2 → Nat) a + S128x8192.size a ≤ S128x8192.size a
  h_S128x8192 : 0 < S128x8192.numel
  reduces_S128x8192_S128 : S128x8192.Reduces [1] S128
  shapeCasts_S128_S128x1 : S128.ShapeCasts S128x1
  reduces_S128x1_S1 : S128x1.Reduces [0] S1
  shapeCasts_S1_S1x1 : S1.ShapeCasts S1x1
  shapeCasts_S1x1x1_S1x1 : S1x1x1.ShapeCasts S1x1
  shapeCasts_S1x1_S1x1x1 : S1x1.ShapeCasts S1x1x1
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S4096x8192.size a
  hwx0_0 : ∀ i : grid0.Coords, EltTy.bits .f32 = 32 ∨ (Rect.block (s := S4096x8192) S128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S4096x8192.size a
  hwx0_1 : ∀ i : grid0.Coords, EltTy.bits .f32 = 32 ∨ (Rect.block (s := S4096x8192) S128x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

abbrev win0_0 : Pipeline.Window sig grid0 :=
  Pipeline.Window.ofSpec (Memref.whole main_arg0) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x8192 : Shape := ⟨2, ![4096, 8192]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | .hbm, ⟨2, _⟩ => ⟨S_, .f32⟩
  | .hbm, ⟨3, _⟩ => ⟨S4096x8192, .f32⟩
  | .hbm, ⟨4, _⟩ => ⟨S4096x8192, .i1⟩
  | .hbm, ⟨5, _⟩ => ⟨S_, .f32⟩
  | .hbm, ⟨6, _⟩ => ⟨S4096x8192, .f32⟩
  | .hbm, ⟨7, _⟩ => ⟨S4096x8192, .i1⟩
  | .hbm, ⟨8, _⟩ => ⟨S_, .f32⟩
  | .hbm, ⟨9, _⟩ => ⟨S_, .f32⟩
  | .hbm, ⟨10, _⟩ => ⟨S4096x8192, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S4096x8192, .i1⟩
  | .hbm, ⟨17, _⟩ => ⟨S_, .f32⟩
  | .hbm, ⟨18, _⟩ => ⟨S_, .f32⟩
  | .hbm, ⟨19, _⟩ => ⟨S4096x8192, .f32⟩
  | .hbm, ⟨20, _⟩ => ⟨S4096x8192, .f32⟩
  | .hbm, ⟨21, _⟩ => ⟨S4096x8192, .f32⟩
  | .hbm, ⟨22, _⟩ => ⟨S4096x8192, .f32⟩
  | .hbm, ⟨23, _⟩ => ⟨S4096x8192, .f32⟩
  | .hbm, ⟨24, _⟩ => ⟨S4096x8192, .f32⟩
  | .hbm, ⟨25, _⟩ => ⟨S4096x8192, .f32⟩
  | .hbm, ⟨26, _⟩ => ⟨S4096x8192, .f32⟩
  | .hbm, ⟨27, _⟩ => ⟨S4096x8192, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_cst_2 : Ref sig .tc := ⟨.hbm, 9, rfl⟩
abbrev main_call0_v0 : Ref sig .tc := ⟨.hbm, 10, rfl⟩
abbrev main_call0_v1 : Ref sig .tc := ⟨.hbm, 11, rfl⟩
abbrev main_v4 : Ref sig .tc := ⟨.hbm, 12, rfl⟩
abbrev main_cst_3 : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_cst_4 : Ref sig .tc := ⟨.hbm, 17, rfl⟩
abbrev main_cst_5 : Ref sig .tc := ⟨.hbm, 18, rfl⟩
abbrev main_call2_v0 : Ref sig .tc := ⟨.hbm, 19, rfl⟩
abbrev main_call2_v1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_6 : Ref sig .tc := ⟨.hbm, 28, rfl⟩
abbrev main_v14 : Ref sig .tc := ⟨.hbm, 29, rfl⟩
abbrev main_cst_7 : Ref sig .tc := ⟨.hbm, 30, rfl⟩
abbrev main_v15 : Ref sig .tc := ⟨.hbm, 31, rfl⟩

abbrev nD : Nat := 1
abbrev τ : Topo := Topo.v7x

variable {F : FTy → Type} [FloatOps F]

class Facts₀ : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel

variable [Facts₀]

class Facts : Prop extends Facts₀ where

variable [Facts]
-- ==== Proof.LibBlockSum.lean ====
/-
  A sum over `a * b` consecutive indices, cut into `a` consecutive blocks of `b` indices each: the whole sum is the
  sum over the blocks of the sums inside each block. Only commutativity and associativity of `+` are used, so the
  law holds in every commutative additive monoid — in particular on the extended reals, where no finiteness is needed.
-/
import Mathlib.Algebra.BigOperators.Fin
import Mathlib.Logic.Equiv.Fin.Basic

namespace Cert.BlockSum

open Finset

/-- Position `j` of block `k` is an index below `a * b`. -/
theorem block_lt {a b : ℕ} (k : Fin a) (j : Fin b) : k.val * b + j.val < a * b :=
  Nat.lt_of_lt_of_le (Nat.add_lt_add_left j.isLt _) (by rw [← Nat.succ_mul]; exact Nat.mul_le_mul_right _ k.isLt)

/-- The sum of `g` over the `a * b` indices, read block by block: block `k` holds the indices `k * b + j`, `j < b`. -/
theorem sum_blocks {M : Type*} [AddCommMonoid M] (a b : ℕ) (g : Fin (a * b) → M) :
    ∑ i : Fin (a * b), g i = ∑ k : Fin a, ∑ j : Fin b, g ⟨k.val * b + j.val, block_lt k j⟩ := by
  rw [← finProdFinEquiv.sum_comp, Fintype.sum_prod_type]
  refine Finset.sum_congr rfl fun k _ => Finset.sum_congr rfl fun j _ => congrArg g (Fin.ext ?_)
  show j.val + b * k.val = k.val * b + j.val
  rw [Nat.mul_comm, Nat.add_comm]

/-- The same over `n` indices when `n` is the product `a * b`. -/
theorem sum_blocks_of_eq {M : Type*} [AddCommMonoid M] (a b n : ℕ) (hn : a * b = n) (g : Fin n → M) :
    ∑ i : Fin n, g i = ∑ k : Fin a, ∑ j : Fin b, g ⟨k.val * b + j.val, hn ▸ block_lt k j⟩ := by
  subst hn
  exact sum_blocks a b g

end Cert.BlockSum
-- ==== Proof.LossSpec.lean ====
/-
  The loss as mathematics. Every entry of the two [4096, 8192] arrays (a norm n and a label l) contributes the square
  of n · a(l) − l · b(l), where a(l) is 10 when l = 1, 5 when l = 2 and 1 otherwise, and b(l) is 10 when l is 1 or 2
  and 1 otherwise. The loss is the sum of these squares over all entries, divided by the number of entries, 2^25.

  The sum may be taken in any grouping: rows in 32 consecutive blocks of 128, the blocks in 2 consecutive halves of 16.
  Only commutativity and associativity of + are used, so the regrouping holds on the extended reals with no finiteness.
  An accumulator that restarts at every sixteenth step holds, after step n, the sum of the steps since the last restart.
-/
import Idealize.ShloMosaic.PureOps.Ideal
import Idealize.ShloMosaic.PureOps.Ideal.Laws
import Idealize.ShloMosaic.Lib.ValueIdx
import Mathlib.Algebra.BigOperators.Fin
import Mathlib.Algebra.BigOperators.Intervals
import proofs.«170849_j31499290149450_2_alg».proof.Proof.LibBlockSum

noncomputable section

open scoped BigOperators

namespace Cert.LossSpec

open Idealize.ShloMosaic Idealize.ShloMosaic.ValueIdx

/-! ## One entry -/

section Entry

variable {F : FTy → Type} [FloatOps F]

/-- The label is 1. -/
def isOne (l : F .f32) : BitVec 1 := FloatOps.cmpf .oeq l (FloatOps.ofBits .f32 0x3F800000#32)
/-- The label is 2. -/
def isTwo (l : F .f32) : BitVec 1 := FloatOps.cmpf .oeq l (FloatOps.ofBits .f32 0x40000000#32)

/-- The factor on the norm: 10 at label 1, 5 at label 2, 1 elsewhere. -/
def scaleN (l : F .f32) : F .f32 :=
  Scalar.select (isOne l) (FloatOps.ofBits .f32 0x41200000#32)
    (Scalar.select (isTwo l) (FloatOps.ofBits .f32 0x40A00000#32) (FloatOps.ofBits .f32 0x3F800000#32))

/-- The factor on the label: 10 at labels 1 and 2, 1 elsewhere. -/
def scaleL (l : F .f32) : F .f32 :=
  Scalar.select (IntOp.ori (isOne l) (isTwo l)) (FloatOps.ofBits .f32 0x41200000#32) (FloatOps.ofBits .f32 0x3F800000#32)

/-- The scaled difference n · a(l) − l · b(l). -/
def diff (n l : F .f32) : F .f32 := FloatOps.subf (FloatOps.mulf n (scaleN l)) (FloatOps.mulf l (scaleL l))

/-- One entry's contribution: the square of the scaled difference. -/
def sqEntry (n l : F .f32) : F .f32 := FloatOps.mulf (diff n l) (diff n l)

end Entry

/-! ## The whole loss -/

/-- The sum of the contributions of one block of 128 rows. -/
def blockSum (x0 x1 : (⟨2, ![128, 8192]⟩ : Shape).Idx → EReal) : EReal :=
  ∑ r : Fin 128, ∑ q : Fin 8192, sqEntry (F := Ideal) (x0 (ix2 r q)) (x1 (ix2 r q))

/-- The sum of all contributions. -/
def total (x0 x1 : (⟨2, ![4096, 8192]⟩ : Shape).Idx → EReal) : EReal :=
  ∑ i, sqEntry (F := Ideal) (x0 i) (x1 i)

/-- The loss: the sum of all contributions divided by 2^25 (as the f32 word 0x4C000000 denotes it). -/
def meanSq (x0 x1 : (⟨2, ![4096, 8192]⟩ : Shape).Idx → EReal) : EReal :=
  Ideal.div (total x0 x1) (Ideal.ofBits .f32 0x4C000000#32)

/-- Row r of block t is row t · 128 + r of the array. -/
theorem row_lt (t : Fin 32) (r : Fin 128) : t.val * 128 + r.val < 4096 := by
  have := t.isLt; have := r.isLt; omega

/-- Block k of half c is block c · 16 + k. -/
theorem blk_lt (c : Fin 2) (k : Fin 16) : c.val * 16 + k.val < 32 := by
  have := c.isLt; have := k.isLt; omega

/-- Block t of an array: its 128 rows from row t · 128 on. -/
def blockOf (x : (⟨2, ![4096, 8192]⟩ : Shape).Idx → EReal) (t : Fin 32) : (⟨2, ![128, 8192]⟩ : Shape).Idx → EReal :=
  fun j => x (ix2 ⟨t.val * 128 + (j 0).val, row_lt t (j 0)⟩ (j 1))

/-- THE REGROUPING. The sum of all contributions is the sum over the two halves, of the sixteen blocks of each half,
    of each block's sum. -/
theorem total_eq_blocks (x0 x1 : (⟨2, ![4096, 8192]⟩ : Shape).Idx → EReal) :
    total x0 x1 = ∑ c : Fin 2, ∑ k : Fin 16, blockSum (blockOf x0 ⟨c.val * 16 + k.val, blk_lt c k⟩) (blockOf x1 ⟨c.val * 16 + k.val, blk_lt c k⟩) := by
  unfold total
  rw [sum_idx2, Cert.BlockSum.sum_blocks_of_eq 32 128 4096 (by norm_num),
    Cert.BlockSum.sum_blocks_of_eq 2 16 32 (by norm_num)]
  rfl

/-! ## An accumulator restarted every sixteenth step -/

section Acc

variable {M : Type*} [AddCommMonoid M]

/-- What the accumulator holds after step n: step n's term alone when n is a multiple of 16, and otherwise what it held
    after step n − 1 plus step n's term. -/
def accRun (f : ℕ → M) : ℕ → M
  | 0 => f 0
  | n + 1 => if (n + 1) % 16 = 0 then f (n + 1) else accRun f n + f (n + 1)

theorem accRun_zero (f : ℕ → M) : accRun f 0 = f 0 := rfl
/-- At a multiple of 16 the accumulator restarts. -/
theorem accRun_restart (f : ℕ → M) (n : ℕ) (h : (n + 1) % 16 = 0) : accRun f (n + 1) = f (n + 1) :=
  show (if (n + 1) % 16 = 0 then f (n + 1) else accRun f n + f (n + 1)) = _ from if_pos h
/-- Elsewhere it adds the step's term. -/
theorem accRun_step (f : ℕ → M) (n : ℕ) (h : ¬(n + 1) % 16 = 0) : accRun f (n + 1) = accRun f n + f (n + 1) :=
  show (if (n + 1) % 16 = 0 then f (n + 1) else accRun f n + f (n + 1)) = _ from if_neg h

/-- It holds the sum of the terms since the last multiple of 16. -/
theorem accRun_eq (f : ℕ → M) : ∀ n, accRun f n = ∑ j ∈ Finset.range (n % 16 + 1), f (n - n % 16 + j)
  | 0 => by simp [accRun]
  | n + 1 => by
    unfold accRun
    split
    · rename_i h
      rw [h]
      simp
    · rename_i h
      have h1 : (n + 1) % 16 = n % 16 + 1 := by omega
      have h2 : n + 1 - (n % 16 + 1) = n - n % 16 := by omega
      rw [accRun_eq f n, h1, h2, Finset.sum_range_succ (n := n % 16 + 1)]
      congr 2
      have := Nat.mod_le n 16
      omega

/-- After the last step of a run of sixteen it holds the sum of the sixteen. -/
theorem accRun_last (f : ℕ → M) (c : ℕ) : accRun f (c * 16 + 15) = ∑ k : Fin 16, f (c * 16 + k.val) := by
  rw [accRun_eq, Finset.sum_range]
  have h1 : (c * 16 + 15) % 16 = 15 := by omega
  rw [h1]
  refine Finset.sum_congr rfl fun k _ => congrArg f ?_
  omega

end Acc

/-! ## The loss through the restarted accumulator -/

/-- Step n's term: the sum of block n (nothing beyond the 32 blocks). -/
def stepSum (x0 x1 : (⟨2, ![4096, 8192]⟩ : Shape).Idx → EReal) (n : ℕ) : EReal :=
  if h : n < 32 then blockSum (blockOf x0 ⟨n, h⟩) (blockOf x1 ⟨n, h⟩) else 0

/-- Within the 32 blocks it is the block's sum. -/
theorem stepSum_of_lt (x0 x1 : (⟨2, ![4096, 8192]⟩ : Shape).Idx → EReal) (n : ℕ) (h : n < 32) :
    stepSum x0 x1 n = blockSum (blockOf x0 ⟨n, h⟩) (blockOf x1 ⟨n, h⟩) := dif_pos h

/-- The sum of all contributions is what the accumulator holds after step 15 plus what it holds after step 31. -/
theorem total_eq_acc (x0 x1 : (⟨2, ![4096, 8192]⟩ : Shape).Idx → EReal) :
    total x0 x1 = ∑ c : Fin 2, accRun (stepSum x0 x1) (c.val * 16 + 15) := by
  rw [total_eq_blocks]
  refine Finset.sum_congr rfl fun c _ => ?_
  rw [accRun_last]
  refine Finset.sum_congr rfl fun k _ => ?_
  exact (stepSum_of_lt x0 x1 _ (blk_lt c k)).symm

end Cert.LossSpec

end
-- ==== Proof.LossRef.lean ====
/-
  The reference computes the loss of LossSpec: its array of squares holds, entry by entry, the square of the scaled
  difference, and its result is the sum of that array from zero, divided by 2^25.
-/
import proofs.«170849_j31499290149450_2_alg».proof.Proof.Gen.ReferenceIdeal.Read
import proofs.«170849_j31499290149450_2_alg».proof.Proof.LossSpec

noncomputable section

open scoped BigOperators

namespace Cert.LossRef

open Cert.ReferenceIdeal Cert.ReferenceIdeal.Read Cert.LossSpec Idealize.ShloMosaic Idealize.ShloMosaic.ValueIdx

/-- Each entry of the reference's array of squares is that entry's contribution: the comparisons with 1 and 2, the two
    nested choices of the factors, the two products, the difference and its square are the entry's own. -/
theorem sq_apply {F : FTy → Type} [FloatOps F] (x0 x1 : (⟨S4096x8192, .f32⟩ : BufTy).Contents (Elt F)) (i : S4096x8192.Idx) :
    val_main_v13 (F := F) x0 x1 i = sqEntry (x0 i) (x1 i) := by
  simp only [val_main_v13_apply, val_main_v12_apply, val_main_v11_apply, val_main_v10_apply, val_main_v9_apply,
    val_main_v8_apply, val_main_v7_apply, val_main_v6_apply, val_main_v5_apply, val_main_v4_apply, val_main_v3_apply,
    val_main_v2_apply, val_main_v1_apply, val_main_v0_apply, val_main_call0_v0_apply, val_main_call0_v1_apply,
    val_main_call1_v0_apply, val_main_call2_v0_apply, val_main_call2_v1_apply, val_main_cst_apply, val_main_cst_0_apply,
    val_main_cst_1_apply, val_main_cst_2_apply, val_main_cst_3_apply, val_main_cst_4_apply, val_main_cst_5_apply]
  rfl

/-- The reference's result is the loss: zero plus the sum of all contributions, divided by 2^25. -/
theorem result_eq (x0 x1 : (⟨S4096x8192, .f32⟩ : BufTy).Contents (Elt Ideal)) (i : S_.Idx) :
    val_main_v15 (F := Ideal) x0 x1 i = meanSq x0 x1 := by
  rw [val_main_v15_apply, val_main_v14_apply, val_main_cst_6_apply, val_main_cst_7_apply]
  simp only [sq_apply]
  show Ideal.div (Ideal.ofBits .f32 0x00000000#32 + ∑ j : S4096x8192.Idx, sqEntry (F := Ideal) (x0 j) (x1 j)) (Ideal.ofBits .f32 0x4C000000#32) = _
  rw [Ideal.ofBits_zero_f32, zero_add]
  rfl

end Cert.LossRef

end
-- ==== Proof.LibPlainMatmul.lean ====
/- Two contractions read at coordinates, on the extended reals, for any extents: a `tpu.matmul` with the plain dimension
   numbers (rows × contraction by contraction × columns) into the zero accumulator, at (p, c), is the sum over the
   contraction coordinate k of left(p, k) · right(k, c); and a lane sum of a matrix (a `vector.multi_reduction <add>`
   along axis 1 from the neutral accumulator), at row p, is the sum over k of the matrix at (p, k). Nothing here depends
   on a particular program: a printed record with the plain lists is `DotDims.plain` by `rfl`. -/
import Idealize.ShloMosaic.PureOps.Ideal
import Idealize.ShloMosaic.PureOps.Ideal.Laws
import Idealize.ShloMosaic.Lib.ValueIdx

noncomputable section

open scoped BigOperators

open Idealize.ShloMosaic Idealize.ShloMosaic.ValueIdx

namespace Cert.Lib.PlainMatmul

/-- A matrix product with the plain dimension numbers into the zero accumulator, read at (p, c): the sum over the one
    contraction coordinate of the left operand's row p against the right operand's column c. -/
theorem plain_matmul_zero_apply {M K N : ℕ} {φ₁ φ₂ : FTy} (l : FVec Ideal ⟨2, ![M, K]⟩ φ₁) (r : FVec Ideal ⟨2, ![K, N]⟩ φ₂)
    (p : Fin M) (c : Fin N) :
    FloatOps.matmul (DotDims.plain M K N) none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-- A lane sum of a matrix from the neutral accumulator, read at row p: the sum over the lane coordinate of the matrix
    at (p, k). The hypotheses are typed as the library's reading of the reduction takes them; a printed body's proof
    arguments are accepted for them. -/
theorem rowSum_apply {A K : ℕ} (src : FVec Ideal ⟨2, ![A, K]⟩ .f32) (acc : BitVec 32)
    (h : (⟨2, ![A, K]⟩ : Shape).Reduces [1] ⟨1, ![A]⟩) (hφ : FKind.Formats .f32) (hacc : acc = FKind.add.neutral .f32 hφ)
    (p : Fin A) :
    multiReduction .add [1] ⟨1, ![A]⟩ src acc h hφ hacc (ix1 p) = ∑ k : Fin K, src (ix2 p k) :=
  (Ideal.multiReduction_add_single src acc h hφ hacc (ix1 p)).trans
    (Finset.sum_congr rfl fun k _ => congrArg src (funext fun a => Fin.ext (by
      match a with
      | ⟨0, _⟩ => rfl
      | ⟨1, _⟩ => rfl)))

end Cert.Lib.PlainMatmul

end
-- ==== Proof.LibColSum.lean ====
/- A sum down the rows of a matrix, on the extended reals, for any extents: a `vector.multi_reduction <add>` along
   axis 0 of an [A, K] array from the neutral accumulator, read at column q, is the sum over the row coordinate k of
   the matrix at (k, q). The companion of the lane sum along axis 1. -/
import Idealize.ShloMosaic.PureOps.Ideal
import Idealize.ShloMosaic.PureOps.Ideal.Laws
import Idealize.ShloMosaic.Lib.ValueIdx

noncomputable section

open scoped BigOperators

open Idealize.ShloMosaic Idealize.ShloMosaic.ValueIdx

namespace Cert.Lib.ColSum

/-- A sum down the rows from the neutral accumulator, read at column q: the sum over the row coordinate of the matrix
    at (k, q). The hypotheses are typed as the library's reading of the reduction takes them; a printed body's proof
    arguments are accepted for them. -/
theorem colSum_apply {A K : ℕ} (src : FVec Ideal ⟨2, ![A, K]⟩ .f32) (acc : BitVec 32)
    (h : (⟨2, ![A, K]⟩ : Shape).Reduces [0] ⟨1, ![K]⟩) (hφ : FKind.Formats .f32) (hacc : acc = FKind.add.neutral .f32 hφ)
    (q : Fin K) :
    multiReduction .add [0] ⟨1, ![K]⟩ src acc h hφ hacc (ix1 q) = ∑ k : Fin A, src (ix2 k q) :=
  (Ideal.multiReduction_add_single src acc h hφ hacc (ix1 q)).trans
    (Finset.sum_congr rfl fun k _ => congrArg src (funext fun a => Fin.ext (by
      match a with
      | ⟨0, _⟩ => rfl
      | ⟨1, _⟩ => rfl)))

end Cert.Lib.ColSum

end
-- ==== Proof.LibColumnReads.lean ====
/- Column layouts read at coordinates, for any extents and any element type: a vector `[a]` cast to a column `[a, 1]`
   and back, one column of an `[a, b]` array taken as a unit-stride slice `[a, 1]`, and `N` columns `[a, 1]` laid side by
   side along axis 1 into `[a, N]`.  Each reads the operand at the coordinates that survive, the unit axis at 0.
   Nothing here depends on a particular program. -/
import Idealize.ShloMosaic.Lib.Pipeline.Value
import Idealize.ShloMosaic.Lib.ValueIdx

noncomputable section

open Idealize.ShloMosaic Idealize.ShloMosaic.ValueIdx

namespace Cert.Lib.ColumnReads

variable {α : Type}

/-- A vector `[a]` cast to a column `[a, 1]` reads, at `(p, z)`, the vector at `p`: both sit at row-major position `p`. -/
theorem shapeCast_a_a1_apply {a : ℕ} (v : (⟨1, ![a]⟩ : Shape).Idx → α) (h : (⟨1, ![a]⟩ : Shape).ShapeCasts ⟨2, ![a, 1]⟩)
    (p : Fin a) (z : Fin 1) : shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt; omega

/-- A column `[a, 1]` cast to a vector `[a]` reads, at `p`, the column at `(p, 0)`. -/
theorem shapeCast_a1_a_apply {a : ℕ} (v : (⟨2, ![a, 1]⟩ : Shape).Idx → α) (h : (⟨2, ![a, 1]⟩ : Shape).ShapeCasts ⟨1, ![a]⟩)
    (p : Fin a) : shapeCast ⟨1, ![a]⟩ v h (ix1 p) = v (ix2 p (0 : Fin 1)) := by
  refine shapeCast_apply v h (ix1 p) (ix2 p (0 : Fin 1)) ?_
  rw [Shape.rowMajor_val_one, Shape.rowMajor_val_two]
  show p.val * 1 + 0 = p.val
  omega

/-- Column `o` of an `[a, b]` array, taken as the unit-stride slice `[a, 1]` at offsets `(0, o)`, reads at `(p, z)` the
    array at `(p, o)`. -/
theorem slice_column_apply {a b : ℕ} (o : ℕ) (ho : o < b) (x : (⟨2, ![a, b]⟩ : Shape).Idx → α)
    (h : (⟨2, ![a, b]⟩ : Shape).Slices ![0, o] ⟨2, ![a, 1]⟩) (p : Fin a) (z : Fin 1) :
    extractStridedSlice ⟨2, ![a, 1]⟩ ![0, o] x h (ix2 p z) = x (ix2 p (⟨o, ho⟩ : Fin b)) := by
  refine extractStridedSlice_apply _ x h (ix2 p z) (ix2 p (⟨o, ho⟩ : Fin b)) fun ax => ?_
  match ax with
  | ⟨0, _⟩ => show p.val = 0 + p.val; omega
  | ⟨1, _⟩ => show o = o + z.val; have := z.isLt; omega

/-- `N` columns `[a, 1]` laid side by side along axis 1 read, at `(p, n)`, column `n` at `(p, 0)`. -/
theorem concat_columns_apply {a N : ℕ} (f : Fin N → ((⟨2, ![a, 1]⟩ : Shape).Idx → α))
    (h : Shape.Concatenates ((List.ofFn fun n : Fin N => (⟨⟨2, ![a, 1]⟩, f n⟩ : (s : Shape) × (s.Idx → α))).map (·.1))
      ⟨2, ![a, N]⟩ (1 : Fin 2))
    (p : Fin a) (n : Fin N) :
    concatenate ⟨2, ![a, N]⟩ (1 : Fin 2) (List.ofFn fun n : Fin N => (⟨⟨2, ![a, 1]⟩, f n⟩ : (s : Shape) × (s.Idx → α))) h (ix2 p n)
      = f n (ix2 p (0 : Fin 1)) := by
  refine concatenate_ofFn_unit_apply (t := ⟨2, ![a, N]⟩) (s₁ := ⟨2, ![a, 1]⟩) (1 : Fin 2) f h rfl rfl (ix2 p n) n rfl
    (ix2 p (0 : Fin 1)) fun b hb => ?_
  match b with
  | ⟨0, _⟩ => rfl
  | ⟨1, _⟩ => exact absurd rfl hb

end Cert.Lib.ColumnReads

end
-- ==== Proof.LibUnitCast.lean ====
/- A reshape between two shapes that each hold exactly one element reads that element, whatever the two ranks are:
   [1,1,1] to [1,1], [1] to [1,1], [] to [1], and so on. Both indices sit at row-major position 0, the only one there is.
   Nothing here depends on a particular program. -/
import Idealize.ShloMosaic.Lib.Pipeline.Value

noncomputable section

open Idealize.ShloMosaic

namespace Cert.Lib.UnitCast

/-- A cast between two shapes of one element each, read at any index `j` of the result, is the operand at any index `k`
    of the operand: each shape has only the one index. -/
theorem unit_cast_apply {α : Type} {s t : Shape} (hs : s.numel = 1) (ht : t.numel = 1) (x : s.Idx → α) (h : s.ShapeCasts t)
    (j : t.Idx) (k : s.Idx) : shapeCast t x h j = x k :=
  shapeCast_apply x h j k (by have a := (s.rowMajor k).isLt; have b := (t.rowMajor j).isLt; omega)

end Cert.Lib.UnitCast

end
-- ==== Proof.LossBody.lean ====
/-
  What the kernel body leaves in its one-element output block, at either kind of grid point, as a value.

  The body loads a block of 128 rows of norms and of labels, forms every entry's contribution (the square of the scaled
  difference), sums along the lanes to 128 row totals, sums those to one number, and adds it to what the output block
  held. At a point that starts a run of sixteen it first stores zero there, so it leaves zero plus the block's sum; at
  any other point it leaves the running value plus the block's sum. On the extended reals a lane sum and a sublane sum
  from the neutral accumulator are plain finite sums, so the number added is the block's sum of LossSpec.
-/
import proofs.«170849_j31499290149450_2_alg».proof.Proof.Gen.KernelIdeal.Frame
import proofs.«170849_j31499290149450_2_alg».proof.Proof.LossSpec
import proofs.«170849_j31499290149450_2_alg».proof.Proof.LibPlainMatmul
import proofs.«170849_j31499290149450_2_alg».proof.Proof.LibColSum
import proofs.«170849_j31499290149450_2_alg».proof.Proof.LibColumnReads
import proofs.«170849_j31499290149450_2_alg».proof.Proof.LibUnitCast
import Idealize.ShloMosaic.Lib.Pipeline.Value
import Idealize.ShloMosaic.Lib.Tactic

noncomputable section

open scoped BigOperators

open Idealize.ShloMosaic Idealize.ShloMosaic.TcCoe Idealize.SL.Sem Idealize.ShloMosaic.ValueIdx

namespace Cert.LossBody

open Cert.KernelIdeal Cert.KernelIdeal.Gen Cert.LossSpec Cert.Lib.UnitCast

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-! ## The two kinds of point -/

/-- At a point that continues a run, the output block holding `xo` is left at the body's one store: the payload of
    the two input blocks and `xo`. -/
theorem out_B (c : Dev nD) (i : grid0.Coords) (a2 : Memref sig .tc .vmem S128x8192 .f32) (h2 : a2.IsWhole)
    (a3 : Memref sig .tc .vmem S128x8192 .f32) (h3 : a3.IsWhole) (a4 : Memref sig .tc .vmem S1x1x1 .f32) (h4 : a4.IsWhole)
    (hc : ¬cond0_0 i) (x0 x1 : Vec F S128x8192 .f32) (xo : Vec F S1x1x1 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  rw [View.canon_unit_zero hz3]
  simp only [View.readAt_eq_ld, h2.read_unread, h3.read_unread, h4.read_unread, View.ld_unit_zero (S := S128x8192) hz2,
    View.ld_unit_zero (S := S1x1x1) hz3]

/-- At a point that starts a run, the body stores the zero block, reads it back, and leaves the same payload over the
    zero block. -/
theorem out_A (c : Dev nD) (i : grid0.Coords) (a2 : Memref sig .tc .vmem S128x8192 .f32) (h2 : a2.IsWhole)
    (a3 : Memref sig .tc .vmem S128x8192 .f32) (h3 : a3.IsWhole) (a4 : Memref sig .tc .vmem S1x1x1 .f32) (h4 : a4.IsWhole)
    (hc : cond0_0 i) (x0 x1 : Vec F S128x8192 .f32) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x1x1) hz3, View.readCov_unit_zero (S := S1x1x1) _ hz3]
  simp only [View.readAt_eq_ld, h2.read_unread, h3.read_unread, View.ld_unit_zero (S := S128x8192) hz2]

/-! ## The payload as arithmetic -/

/-- The block's contributions, entry by entry. -/
def sqArr (x0 x1 : Vec F S128x8192 .f32) : FVec F S128x8192 .f32 := fun j => sqEntry (x0 j) (x1 j)

/-- An accumulator plus the total of a [128, 8192] array taken lanes first, then sublanes, through the one-element
    shapes the body passes it through. -/
def addTotal (v : FVec F S128x8192 .f32) (acc : Vec F S1x1x1 .f32) : FVec F S1x1x1 .f32 :=
  shapeCast S1x1x1
    (addf (shapeCast S1x1 acc shapeCasts_S1x1x1_S1x1)
      (shapeCast S1x1
        (multiReduction .add [0] S1
          (shapeCast S128x1 (multiReduction .add [1] S128 v 0x00000000#32 reduces_S128x8192_S128 (.inl rfl) rfl) shapeCasts_S128_S128x1)
          0x00000000#32 reduces_S128x1_S1 (.inl rfl) rfl)
        shapeCasts_S1_S1x1))
    shapeCasts_S1x1_S1x1x1

/-- The body's payload is the accumulator plus the total of the block's contributions: the comparisons, choices,
    products, difference and square are entry by entry. -/
theorem pay2_eq (x0 x1 : Vec F S128x8192 .f32) (acc : Vec F S1x1x1 .f32) :
    k0_pay2 x0 x1 acc = addTotal (sqArr x0 x1) acc := rfl

/-- On the extended reals: the accumulator's element plus the sum over rows of the sums over lanes. -/
theorem addTotal_apply (v : FVec Ideal S128x8192 .f32) (acc : Vec Ideal S1x1x1 .f32) (y : S1x1x1.Idx) :
    addTotal (F := Ideal) v acc y = acc y + ∑ r : Fin 128, ∑ q : Fin 8192, v (ix2 r q) := by
  unfold addTotal
  rw [unit_cast_apply (s := S1x1) (t := S1x1x1) rfl rfl _ _ y (ix2 (0 : Fin 1) (0 : Fin 1))]
  show shapeCast S1x1 acc _ (ix2 (0 : Fin 1) (0 : Fin 1)) + shapeCast S1x1 _ _ (ix2 (0 : Fin 1) (0 : Fin 1)) = _
  refine congrArg₂ (· + ·) (unit_cast_apply (s := S1x1x1) (t := S1x1) rfl rfl acc _ _ y) ?_
  refine (unit_cast_apply (s := S1) (t := S1x1) rfl rfl _ _ _ (ix1 (0 : Fin 1))).trans ?_
  refine (Cert.Lib.ColSum.colSum_apply _ _ _ _ _ (0 : Fin 1)).trans ?_
  refine Finset.sum_congr rfl fun r _ => ?_
  refine (Cert.Lib.ColumnReads.shapeCast_a_a1_apply _ _ r (0 : Fin 1)).trans ?_
  exact Cert.Lib.PlainMatmul.rowSum_apply _ _ _ _ _ r

/-- So the payload, on the extended reals, is the accumulator's element plus the block's sum. -/
theorem pay2_apply (x0 x1 : Vec Ideal S128x8192 .f32) (acc : Vec Ideal S1x1x1 .f32) (y : S1x1x1.Idx) :
    k0_pay2 (F := Ideal) x0 x1 acc y = acc y + blockSum x0 x1 := by
  rw [pay2_eq, addTotal_apply]
  rfl

/-- The zero block's element is zero. -/
theorem pay1_apply (y : S1x1x1.Idx) : k0_pay1 (F := Ideal) y = 0 := Ideal.ofBits_zero_f32

end Cert.LossBody

end
-- ==== Proof.LossAcc.lean ====
/-
  What the kernel's [2, 1, 1] result array holds after all 32 grid points.

  Point t (t = 0 … 31) loads rows t · 128 … t · 128 + 127 of the norms and of the labels; its output block is element
  t / 16 of the result array, which stays in place through sixteen consecutive points and is written back after the
  last of them. So the output block is an accumulator restarted at t = 0 and t = 16: after point t it holds the sum of
  the block sums since the restart (by induction on t), and element c of the result array ends holding what the
  accumulator holds after point c · 16 + 15.
-/
import proofs.«170849_j31499290149450_2_alg».proof.Proof.Gen.KernelIdeal.Frame
import proofs.«170849_j31499290149450_2_alg».proof.Proof.LossBody
import Idealize.ShloMosaic.Lib.Pipeline.Value

noncomputable section

open scoped BigOperators

open Idealize.ShloMosaic Idealize.ShloMosaic.TcCoe Idealize.SL.Sem Idealize.ShloMosaic.ValueIdx
open Idealize.ShloMosaic.Pipeline (Dat)

namespace Cert.LossAcc

open Cert.KernelIdeal Cert.KernelIdeal.Gen Cert.LossSpec Cert.LossBody

variable (m : (ℓ : Loc nD τ sig) → Buf (Elt Ideal) ℓ) (ρ : Dev nD → PrngReg)

/-- The norms as the device holds them at launch. -/
abbrev norms (c : Dev nD) : S4096x8192.Idx → EReal := m ((c : Thread nD τ).loc main_arg0)
/-- The labels as the device holds them at launch. -/
abbrev labels (c : Dev nD) : S4096x8192.Idx → EReal := m ((c : Thread nD τ).loc main_arg1)

/-- The index maps over the grid: both inputs take row block t at point t; the output takes element t / 16. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 16 ∧ win0_2.index t (1 : Fin 3) = 0 ∧ win0_2.index t (2 : Fin 3) = 0 :=
  (by decide +kernel : ∀ t : Fin grid0.N, _)

theorem lt32 (t : Fin cfg0.N) : t.val < 32 := lt_of_lt_of_eq t.isLt (show cfg0.N = 32 from N_0)

/-- The block of norms point t loads is block t of the norms. -/
theorem iblk0_eq (c : Dev nD) (t : Fin cfg0.N) :
    (iblk m c 0 t : Vec Ideal S128x8192 .f32) = blockOf (norms m c) ⟨t.val, lt32 t⟩ := by
  obtain ⟨e0, e1, -⟩ := idx_facts t
  funext j
  unfold iblk blockOf
  rw [View.read_apply]
  show V m c main_arg0 _ = m ((c : Thread nD τ).loc main_arg0) _
  rw [V_main_arg0]
  congr 1
  funext a
  apply Fin.ext
  match a with
  | ⟨0, _⟩ => show win0_0.index t (0 : Fin 2) * 128 + 1 * (j 0).val = t.val * 128 + (j 0).val; rw [e0]; omega
  | ⟨1, _⟩ => show win0_0.index t (1 : Fin 2) * 8192 + 1 * (j 1).val = (j 1).val; rw [e1]; omega

/-- The block of labels point t loads is block t of the labels. -/
theorem iblk1_eq (c : Dev nD) (t : Fin cfg0.N) :
    (iblk m c 1 t : Vec Ideal S128x8192 .f32) = blockOf (labels m c) ⟨t.val, lt32 t⟩ := by
  obtain ⟨-, -, e0, e1, -⟩ := idx_facts t
  funext j
  unfold iblk blockOf
  rw [View.read_apply]
  show V m c main_arg1 _ = m ((c : Thread nD τ).loc main_arg1) _
  rw [V_main_arg1]
  congr 1
  funext a
  apply Fin.ext
  match a with
  | ⟨0, _⟩ => show win0_1.index t (0 : Fin 2) * 128 + 1 * (j 0).val = t.val * 128 + (j 0).val; rw [e0]; omega
  | ⟨1, _⟩ => show win0_1.index t (1 : Fin 2) * 8192 + 1 * (j 1).val = (j 1).val; rw [e1]; omega

/-- THE ACCUMULATION. After point n the output block holds what an accumulator restarted at every sixteenth step holds
    after step n, the steps' terms being the block sums. By induction on the point. -/
theorem outsAt_eq (c : Dev nD) : ∀ (n : ℕ) (h : n < cfg0.N) (y : S1x1x1.Idx),
    outsAt0 m c n h y = accRun (stepSum (norms m c) (labels m c)) n
  | 0, h, y => by
    have e : outsAt0 m c 0 h = k0_pay2 (F := Ideal) (iblk m c 0 ⟨0, h⟩) (iblk m c 1 ⟨0, h⟩) (k0_pay1 (F := Ideal)) :=
      (outsAt0_A m c ⟨0, h⟩ rfl).trans (out_A ..)
    refine (congrFun e y).trans ((pay2_apply (iblk m c 0 ⟨0, h⟩) (iblk m c 1 ⟨0, h⟩) (k0_pay1 (F := Ideal)) y).trans ?_)
    rw [pay1_apply, zero_add, accRun_zero, stepSum_of_lt _ _ 0 (by norm_num), iblk0_eq m c ⟨0, h⟩, iblk1_eq m c ⟨0, h⟩]
  | n + 1, h, y => by
    have hn : n + 1 < 32 := lt32 ⟨n + 1, h⟩
    by_cases h0 : (n + 1) % 16 = 0
    · have e : outsAt0 m c (n + 1) h = k0_pay2 (F := Ideal) (iblk m c 0 ⟨n + 1, h⟩) (iblk m c 1 ⟨n + 1, h⟩) (k0_pay1 (F := Ideal)) :=
        (outsAt0_A m c ⟨n + 1, h⟩ h0).trans (out_A ..)
      refine (congrFun e y).trans ((pay2_apply (iblk m c 0 ⟨n + 1, h⟩) (iblk m c 1 ⟨n + 1, h⟩) (k0_pay1 (F := Ideal)) y).trans ?_)
      rw [pay1_apply, zero_add, accRun_restart _ n h0, stepSum_of_lt _ _ (n + 1) hn, iblk0_eq m c ⟨n + 1, h⟩,
        iblk1_eq m c ⟨n + 1, h⟩]
    · have e : outsAt0 m c (n + 1) h
          = k0_pay2 (F := Ideal) (iblk m c 0 ⟨n + 1, h⟩) (iblk m c 1 ⟨n + 1, h⟩) (outsAt0 m c n (Nat.lt_of_succ_lt h)) :=
        (outsAt0_B m c ⟨n + 1, h⟩ h0).trans (out_B ..)
      refine (congrFun e y).trans
        ((pay2_apply (iblk m c 0 ⟨n + 1, h⟩) (iblk m c 1 ⟨n + 1, h⟩) (outsAt0 m c n (Nat.lt_of_succ_lt h)) y).trans ?_)
      rw [outsAt_eq c n (Nat.lt_of_succ_lt h) y, accRun_step _ n h0, stepSum_of_lt _ _ (n + 1) hn, iblk0_eq m c ⟨n + 1, h⟩,
        iblk1_eq m c ⟨n + 1, h⟩]

/-- The result array's contents: element c holds what the accumulator holds after step c · 16 + 15. -/
def partials (c : Dev nD) : S2x1x1.Idx → EReal :=
  fun i => accRun (stepSum (norms m c) (labels m c)) ((i 0).val * 16 + 15)

/-- A point that writes back (the last of its sixteen) writes the element of `partials` its block is. -/
theorem flushed_eq (c : Dev nD) (t : Fin cfg0.N) (hf : (cfg0.win 2).flush t = true) :
    (dats m 0 c).flushed 2 t = ((cfg0.win 2).blk t).view.read (Elt Ideal) (partials m c) := by
  have h15 : t.val % 16 = 15 := (flush0_2 t).mp hf
  obtain ⟨-, -, -, -, e0, -⟩ := idx_facts t
  show (cfg0.win 2).cut (grid0.coords t) ((dats m 0 c).after 2 t) = _
  rw [after0_2]
  funext y
  show outsAt0 m c t.val t.isLt y = partials m c (((cfg0.win 2).blk t).view.emb y)
  rw [outsAt_eq m c t.val t.isLt y]
  unfold partials
  congr 1
  show t.val = (win0_2.index t (0 : Fin 3) * 1 + 1 * (y 0).val) * 16 + 15
  have hy : (y 0).val < 1 := (y 0).isLt
  rw [e0]
  omega

/-- An index of the result array is in point t's block iff each coordinate is in the block's range on its axis. -/
theorem mem_blk (t : Fin cfg0.N) (i : S2x1x1.Idx) :
    i ∈ ((cfg0.win 2).blk t).view.set ↔ ∀ a : Fin 3, win0_2.index t a * S1x1x1.size a ≤ (i a).val ∧ (i a).val < win0_2.index t a * S1x1x1.size a + S1x1x1.size a := by
  show i ∈ ((View.whole main_v0).slice (win0_2.rect t)).set ↔ _
  rw [View.set_slice_whole, Rect.mem_set_unit]
  exact Iff.rfl

/-- Every element of the result array is written back: element c by point c · 16 + 15. -/
theorem cover (i : S2x1x1.Idx) : ∃ t : Fin cfg0.N, (cfg0.win 2).flush t = true ∧ i ∈ ((cfg0.win 2).blk t).view.set := by
  have hi0 : (i 0).val < 2 := (i 0).isLt
  have hi1 : (i 1).val < 1 := (i 1).isLt
  have hi2 : (i 2).val < 1 := (i 2).isLt
  have hN : cfg0.N = 32 := N_0
  let t : Fin cfg0.N := ⟨(i 0).val * 16 + 15, by omega⟩
  obtain ⟨-, -, -, -, e0, e1, e2⟩ := idx_facts t
  have ht : t.val = (i 0).val * 16 + 15 := rfl
  refine ⟨t, (flush0_2 t).mpr (by omega), ?_⟩
  rw [mem_blk]
  intro a
  match a with
  | ⟨0, _⟩ => show win0_2.index t (0 : Fin 3) * 1 ≤ (i 0).val ∧ (i 0).val < win0_2.index t (0 : Fin 3) * 1 + 1; rw [e0]; omega
  | ⟨1, _⟩ => show win0_2.index t (1 : Fin 3) * 1 ≤ (i 1).val ∧ (i 1).val < win0_2.index t (1 : Fin 3) * 1 + 1; rw [e1]; omega
  | ⟨2, _⟩ => show win0_2.index t (2 : Fin 3) * 1 ≤ (i 2).val ∧ (i 2).val < win0_2.index t (2 : Fin 3) * 1 + 1; rw [e2]; omega

/-- THE RESULT ARRAY after the region: `partials`. -/
theorem final (c : Dev nD) : (dats m 0 c).arrAt 2 cfg0.N = partials m c :=
  (dats m 0 c).arrAt_eq_of_cover 2 (partials m c) (flushed_eq m c) (cover)

end Cert.LossAcc

end
-- ==== Proof.LibIdxSums.lean ====
/-
  Sums over the index set of an array of rank three or four, as nested sums over its coordinates, and the sum over the
  indices with one coordinate fixed. Only commutativity and associativity of `+` are used, so every statement holds in
  any commutative additive monoid — on the extended reals in particular, with no finiteness.
-/
import Idealize.ShloMosaic.Lib.ValueIdx
import Mathlib.Algebra.BigOperators.Fin

open Idealize.ShloMosaic Idealize.ShloMosaic.ValueIdx

namespace Cert.Lib.IdxSums

/-- An index of a rank-3 array is its three coordinates. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over the indices of a rank-3 array is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- An index of a rank-4 array is its four coordinates. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over the indices of a rank-4 array is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- The sum over the indices of a rank-4 array that satisfy a predicate saying "the SECOND coordinate is `k`": the triple
    sum over the other three coordinates. -/
theorem sum_filter_axis1 {M : Type*} [AddCommMonoid M] {n0 n1 n2 n3 : Nat} (f : (⟨4, ![n0, n1, n2, n3]⟩ : Shape).Idx → M)
    (k : Fin n1) (p : (⟨4, ![n0, n1, n2, n3]⟩ : Shape).Idx → Prop) [DecidablePred p] (hp : ∀ i, p i ↔ (i 1).val = k.val) :
    ∑ i ∈ Finset.univ.filter p, f i = ∑ a : Fin n0, ∑ c : Fin n2, ∑ d : Fin n3, f (ix4 a k c d) := by
  rw [Finset.sum_filter, sum_idx4]
  refine Finset.sum_congr rfl fun a _ => ?_
  rw [Finset.sum_eq_single k]
  · refine Finset.sum_congr rfl fun c _ => Finset.sum_congr rfl fun d _ => ?_
    exact if_pos ((hp _).mpr rfl)
  · intro b _ hb
    refine Finset.sum_eq_zero fun c _ => Finset.sum_eq_zero fun d _ => ?_
    exact if_neg fun h => hb (Fin.ext ((hp _).mp h))
  · intro h; exact absurd (Finset.mem_univ _) h

end Cert.Lib.IdxSums
-- ==== Proof.LossKernel.lean ====
/-
  The kernel's result. After the region the host sums the two elements of the result array from zero and divides by
  2^25. The two elements are what the restarted accumulator holds after steps 15 and 31, whose sum is the sum of all
  contributions (LossSpec's regrouping), so the kernel's result is the loss.
-/
import proofs.«170849_j31499290149450_2_alg».proof.Proof.Gen.KernelIdeal.Frame
import proofs.«170849_j31499290149450_2_alg».proof.Proof.LossAcc
import proofs.«170849_j31499290149450_2_alg».proof.Proof.LibIdxSums
import Idealize.ShloMosaic.Lib.Pipeline.Value
import Idealize.ShloMosaic.Lib.StableHlo.Run

noncomputable section

open scoped BigOperators

open Idealize.ShloMosaic Idealize.ShloMosaic.TcCoe Idealize.SL.Sem Idealize.ShloMosaic.ValueIdx
open Idealize.ShloMosaic.Pipeline (Dat)

namespace Cert.LossKernel

open Cert.KernelIdeal Cert.KernelIdeal.Gen Cert.LossSpec Cert.LossAcc

variable (m : (ℓ : Loc nD τ sig) → Buf (Elt Ideal) ℓ) (ρ : Dev nD → PrngReg)

/-- The host lines after the region, applied to the result array: its sum from zero, divided by 2^25. -/
def tail (v : S2x1x1.Idx → EReal) : S_.Idx → EReal :=
  Host.divf (F := Ideal)
    (Host.reduceAdd (F := Ideal) v (constant (F := Ideal) S_ .f32 0x00000000#32) reducesTo_S2x1x1_S_d0_1_2 h_S_)
    (constant (F := Ideal) S_ .f32 0x4C000000#32)

/-- What @main's result buffer holds after the host lines: the tail of the result array the region left. -/
theorem afterTail_eq (c : Dev nD) :
    Pipeline.afterTail₀ cfgs (dats m) 0 (V0 m) [hostOps1] c main_v2 = tail (partials m c) := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v0)
      = partials m c :=
    (Pipeline.withArrays_arr spec0 launch0.win.arr_inj c _ _ 2).trans (final m c)
  rw [e]
  rfl

/-- The tail of the result array is the loss: zero plus the two accumulator values, which together are the sum of all
    contributions, divided by 2^25. -/
theorem tail_partials (c : Dev nD) (i : S_.Idx) : tail (partials m c) i = meanSq (norms m c) (labels m c) := by
  show Ideal.div (Ideal.hostReduceAdd reducesTo_S2x1x1_S_d0_1_2 (partials m c) (Ideal.ofBits .f32 0x00000000#32) i)
    (Ideal.ofBits .f32 0x4C000000#32) = _
  rw [Ideal.hostReduceAdd_total reducesTo_S2x1x1_S_d0_1_2 (fun b => b.elim0), Ideal.ofBits_zero_f32, zero_add,
    Cert.Lib.IdxSums.sum_idx3]
  unfold meanSq
  rw [total_eq_acc]
  congr 1
  refine Finset.sum_congr rfl fun a _ => ?_
  rw [Fin.sum_univ_one, Fin.sum_univ_one]
  rfl

/-- @main's result buffer is no array of the region and is not scoped: the run's post reads it after the host lines. -/
theorem v2_rest : main_v2 ∈ Pipeline.restRefs sig (cfgs 0).spec :=
  Pipeline.mem_restRefs_of main_v2 rfl (fun w => by fin_cases w <;> decide)

/-- THE KERNEL'S RUN, read: every weakly fair execution ends with the result buffer at the loss of the launch contents of
    the two arguments, and the arguments unchanged. -/
theorem run : θ_run defs (onTc (τ := τ) (main (F := Ideal))) ⟨m, fun _ => 0, ρ⟩ fun r => ∀ c : Dev nD,
      r.2.mem ((c : Thread nD τ).loc main_v2) = (fun _ => meanSq (norms m c) (labels m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v2 v2_rest).trans ((afterTail_eq m c).trans (funext fun i => tail_partials m c i)),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.LossKernel

end
-- ==== Proof.lean ====
/-
  The kernel and its reference compute one loss.

  Both take two [4096, 8192] arrays, norms and labels. Each entry contributes the square of n · a(l) − l · b(l), where
  a(l) is 10, 5 or 1 as the label is 1, 2 or anything else, and b(l) is 10 at labels 1 and 2 and 1 elsewhere; the
  result is the sum of all contributions divided by 2^25. The reference sums all entries at once. The kernel walks 32
  blocks of 128 rows, sums each block lanes first and then sublanes, keeps two running sums (blocks 0–15 and 16–31,
  each restarted from zero at its first block), and the host adds the two from zero and divides by the same 2^25.

  On the extended reals the two results are equal because a finite sum may be regrouped freely (+ is commutative and
  associative, and zero is neutral); no entry needs to be finite, so the precondition is never opened. The comparisons,
  the choices of the factors, the products, the difference and the square are the same operations of the same literal
  words on both sides, and so is the division.

  The three frames are the generated ones (the reference's is its generated run with the result dropped); the kernel is
  its own idealization (the ledger is empty).
-/
import proofs.«170849_j31499290149450_2_alg».proof.Defs
import proofs.«170849_j31499290149450_2_alg».proof.Proof.Gen.Kernel
import proofs.«170849_j31499290149450_2_alg».proof.Proof.Gen.Kernel.Skeleton
import proofs.«170849_j31499290149450_2_alg».proof.Proof.Gen.Kernel.Launch
import proofs.«170849_j31499290149450_2_alg».proof.Proof.Gen.Kernel.Points
import proofs.«170849_j31499290149450_2_alg».proof.Proof.Gen.Kernel.Frame
import proofs.«170849_j31499290149450_2_alg».proof.Proof.Gen.KernelIdeal
import proofs.«170849_j31499290149450_2_alg».proof.Proof.Gen.KernelIdeal.Skeleton
import proofs.«170849_j31499290149450_2_alg».proof.Proof.Gen.KernelIdeal.Launch
import proofs.«170849_j31499290149450_2_alg».proof.Proof.Gen.KernelIdeal.Points
import proofs.«170849_j31499290149450_2_alg».proof.Proof.Gen.KernelIdeal.Frame
import proofs.«170849_j31499290149450_2_alg».proof.Proof.Gen.ReferenceIdeal
import proofs.«170849_j31499290149450_2_alg».proof.Proof.Gen.ReferenceIdeal.Run
import proofs.«170849_j31499290149450_2_alg».proof.Proof.Gen.ReferenceIdeal.Read
import proofs.«170849_j31499290149450_2_alg».proof.Proof.Gen.Pre_finite_inputs
import proofs.«170849_j31499290149450_2_alg».proof.Proof.LossRef
import proofs.«170849_j31499290149450_2_alg».proof.Proof.LossKernel
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with their result at the loss of the launch contents of the two arguments, and the arguments
    agree. -/
theorem algebraic : Cert.algebraic_KernelIdeal_ReferenceIdeal := by
  intro m ρ m' ρ' _ hagree
  refine ⟨fun c _ => Cert.LossSpec.meanSq (Cert.LossAcc.norms m c) (Cert.LossAcc.labels m c), Cert.LossKernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq]
  funext i
  rw [Cert.LossRef.result_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
